-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S1024 : Shape := ⟨1, ![1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S128x1024 .f32) (main_arg1 : FVec F S1024x1024 .f32) (main_arg2 : FVec F S1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S1024x128 : Shape := ⟨2, ![1024, 128]⟩
abbrev S1x128 : Shape := ⟨2, ![1, 128]⟩
abbrev S128x128 : Shape := ⟨2, ![128, 128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S128x1024, .f32⟩
  | .local _ .vmem, ⟨0, _⟩ => ⟨S128x1024, .f32⟩
  | .local _ .vmem, ⟨1, _⟩ => ⟨S1024x128, .f32⟩
  | .local _ .vmem, ⟨2, _⟩ => ⟨S1024x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v8 : BitVec 32 := Scalar.muli arg5 c128_i32
  v8
def k0_off1 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c128_i32 : BitVec 32 := 128#32
  let v8 : BitVec 32 := Scalar.muli arg5 c128_i32
  let v9 : BitVec 32 := v8
  let v10 : Index := Scalar.indexCast v9
  ![0, v10.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v8 : BitVec 32 := Scalar.muli arg5 c128_i32
  let v9 : BitVec 32 := v8
  let v12 : Index := Scalar.indexCast v9
  let c0_5 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  shapeCasts_S1024_S1x1024 : S1024.ShapeCasts S1x1024
  h_S128x128 : 0 < S128x128.numel
  shapeCasts_S128x128_S128x128 : S128x128.ShapeCasts S128x128
  slices_S128x128_o0_0_S128x1 : S128x128.Slices ![0, 0] S128x1
  slices_S128x128_o0_0_S1x128 : S128x128.Slices ![0, 0] S1x128
  broadcasts_S128x1_S128x128 : S128x1.Broadcasts S128x128
  broadcasts_S1x128_S128x128 : S1x128.Broadcasts S128x128
  slices_S128x128_o0_1_S128x1 : S128x128.Slices ![0, 1] S128x1
  slices_S128x128_o1_0_S1x128 : S128x128.Slices ![1, 0] S1x128
  slices_S128x128_o0_2_S128x1 : S128x128.Slices ![0, 2] S128x1
  slices_S128x128_o2_0_S1x128 : S128x128.Slices ![2, 0] S1x128
  slices_S128x128_o0_3_S128x1 : S128x128.Slices ![0, 3] S128x1
  slices_S128x128_o3_0_S1x128 : S128x128.Slices ![3, 0] S1x128
  slices_S128x128_o0_4_S128x1 : S128x128.Slices ![0, 4] S128x1
  slices_S128x128_o4_0_S1x128 : S128x128.Slices ![4, 0] S1x128
  slices_S128x128_o0_5_S128x1 : S128x128.Slices ![0, 5] S128x1
  slices_S128x128_o5_0_S1x128 : S128x128.Slices ![5, 0] S1x128
  slices_S128x128_o0_6_S128x1 : S128x128.Slices ![0, 6] S128x1
  slices_S128x128_o6_0_S1x128 : S128x128.Slices ![6, 0] S1x128
  slices_S128x128_o0_7_S128x1 : S128x128.Slices ![0, 7] S128x1
  slices_S128x128_o7_0_S1x128 : S128x128.Slices ![7, 0] S1x128
  slices_S128x128_o0_8_S128x1 : S128x128.Slices ![0, 8] S128x1
  slices_S128x128_o8_0_S1x128 : S128x128.Slices ![8, 0] S1x128
  slices_S128x128_o0_9_S128x1 : S128x128.Slices ![0, 9] S128x1
  slices_S128x128_o9_0_S1x128 : S128x128.Slices ![9, 0] S1x128
  slices_S128x128_o0_10_S128x1 : S128x128.Slices ![0, 10] S128x1
  slices_S128x128_o10_0_S1x128 : S128x128.Slices ![10, 0] S1x128
  slices_S128x128_o0_11_S128x1 : S128x128.Slices ![0, 11] S128x1
  slices_S128x128_o11_0_S1x128 : S128x128.Slices ![11, 0] S1x128
  slices_S128x128_o0_12_S128x1 : S128x128.Slices ![0, 12] S128x1
  slices_S128x128_o12_0_S1x128 : S128x128.Slices ![12, 0] S1x128
  slices_S128x128_o0_13_S128x1 : S128x128.Slices ![0, 13] S128x1
  slices_S128x128_o13_0_S1x128 : S128x128.Slices ![13, 0] S1x128
  slices_S128x128_o0_14_S128x1 : S128x128.Slices ![0, 14] S128x1
  slices_S128x128_o14_0_S1x128 : S128x128.Slices ![14, 0] S1x128
  slices_S128x128_o0_15_S128x1 : S128x128.Slices ![0, 15] S128x1
  slices_S128x128_o15_0_S1x128 : S128x128.Slices ![15, 0] S1x128
  slices_S128x128_o0_16_S128x1 : S128x128.Slices ![0, 16] S128x1
  slices_S128x128_o16_0_S1x128 : S128x128.Slices ![16, 0] S1x128
  slices_S128x128_o0_17_S128x1 : S128x128.Slices ![0, 17] S128x1
  slices_S128x128_o17_0_S1x128 : S128x128.Slices ![17, 0] S1x128
  slices_S128x128_o0_18_S128x1 : S128x128.Slices ![0, 18] S128x1
  slices_S128x128_o18_0_S1x128 : S128x128.Slices ![18, 0] S1x128
  slices_S128x128_o0_19_S128x1 : S128x128.Slices ![0, 19] S128x1
  slices_S128x128_o19_0_S1x128 : S128x128.Slices ![19, 0] S1x128
  slices_S128x128_o0_20_S128x1 : S128x128.Slices ![0, 20] S128x1
  slices_S128x128_o20_0_S1x128 : S128x128.Slices ![20, 0] S1x128
  slices_S128x128_o0_21_S128x1 : S128x128.Slices ![0, 21] S128x1
  slices_S128x128_o21_0_S1x128 : S128x128.Slices ![21, 0] S1x128
  slices_S128x128_o0_22_S128x1 : S128x128.Slices ![0, 22] S128x1
  slices_S128x128_o22_0_S1x128 : S128x128.Slices ![22, 0] S1x128
  slices_S128x128_o0_23_S128x1 : S128x128.Slices ![0, 23] S128x1
  slices_S128x128_o23_0_S1x128 : S128x128.Slices ![23, 0] S1x128
  slices_S128x128_o0_24_S128x1 : S128x128.Slices ![0, 24] S128x1
  slices_S128x128_o24_0_S1x128 : S128x128.Slices ![24, 0] S1x128
  slices_S128x128_o0_25_S128x1 : S128x128.Slices ![0, 25] S128x1
  slices_S128x128_o25_0_S1x128 : S128x128.Slices ![25, 0] S1x128
  slices_S128x128_o0_26_S128x1 : S128x128.Slices ![0, 26] S128x1
  slices_S128x128_o26_0_S1x128 : S128x128.Slices ![26, 0] S1x128
  slices_S128x128_o0_27_S128x1 : S128x128.Slices ![0, 27] S128x1
  slices_S128x128_o27_0_S1x128 : S128x128.Slices ![27, 0] S1x128
  slices_S128x128_o0_28_S128x1 : S128x128.Slices ![0, 28] S128x1
  slices_S128x128_o28_0_S1x128 : S128x128.Slices ![28, 0] S1x128
  slices_S128x128_o0_29_S128x1 : S128x128.Slices ![0, 29] S128x1
  slices_S128x128_o29_0_S1x128 : S128x128.Slices ![29, 0] S1x128
  slices_S128x128_o0_30_S128x1 : S128x128.Slices ![0, 30] S128x1
  slices_S128x128_o30_0_S1x128 : S128x128.Slices ![30, 0] S1x128
  slices_S128x128_o0_31_S128x1 : S128x128.Slices ![0, 31] S128x1
  slices_S128x128_o31_0_S1x128 : S128x128.Slices ![31, 0] S1x128
  slices_S128x128_o0_32_S128x1 : S128x128.Slices ![0, 32] S128x1
  slices_S128x128_o32_0_S1x128 : S128x128.Slices ![32, 0] S1x128
  slices_S128x128_o0_33_S128x1 : S128x128.Slices ![0, 33] S128x1
  slices_S128x128_o33_0_S1x128 : S128x128.Slices ![33, 0] S1x128
  slices_S128x128_o0_34_S128x1 : S128x128.Slices ![0, 34] S128x1
  slices_S128x128_o34_0_S1x128 : S128x128.Slices ![34, 0] S1x128
  slices_S128x128_o0_35_S128x1 : S128x128.Slices ![0, 35] S128x1
  slices_S128x128_o35_0_S1x128 : S128x128.Slices ![35, 0] S1x128
  slices_S128x128_o0_36_S128x1 : S128x128.Slices ![0, 36] S128x1
  slices_S128x128_o36_0_S1x128 : S128x128.Slices ![36, 0] S1x128
  slices_S128x128_o0_37_S128x1 : S128x128.Slices ![0, 37] S128x1
  slices_S128x128_o37_0_S1x128 : S128x128.Slices ![37, 0] S1x128
  slices_S128x128_o0_38_S128x1 : S128x128.Slices ![0, 38] S128x1
  slices_S128x128_o38_0_S1x128 : S128x128.Slices ![38, 0] S1x128
  slices_S128x128_o0_39_S128x1 : S128x128.Slices ![0, 39] S128x1
  slices_S128x128_o39_0_S1x128 : S128x128.Slices ![39, 0] S1x128
  slices_S128x128_o0_40_S128x1 : S128x128.Slices ![0, 40] S128x1
  slices_S128x128_o40_0_S1x128 : S128x128.Slices ![40, 0] S1x128
  slices_S128x128_o0_41_S128x1 : S128x128.Slices ![0, 41] S128x1
  slices_S128x128_o41_0_S1x128 : S128x128.Slices ![41, 0] S1x128
  slices_S128x128_o0_42_S128x1 : S128x128.Slices ![0, 42] S128x1
  slices_S128x128_o42_0_S1x128 : S128x128.Slices ![42, 0] S1x128
  slices_S128x128_o0_43_S128x1 : S128x128.Slices ![0, 43] S128x1
  slices_S128x128_o43_0_S1x128 : S128x128.Slices ![43, 0] S1x128
  slices_S128x128_o0_44_S128x1 : S128x128.Slices ![0, 44] S128x1
  slices_S128x128_o44_0_S1x128 : S128x128.Slices ![44, 0] S1x128
  slices_S128x128_o0_45_S128x1 : S128x128.Slices ![0, 45] S128x1
  slices_S128x128_o45_0_S1x128 : S128x128.Slices ![45, 0] S1x128
  slices_S128x128_o0_46_S128x1 : S128x128.Slices ![0, 46] S128x1
  slices_S128x128_o46_0_S1x128 : S128x128.Slices ![46, 0] S1x128
  slices_S128x128_o0_47_S128x1 : S128x128.Slices ![0, 47] S128x1
  slices_S128x128_o47_0_S1x128 : S128x128.Slices ![47, 0] S1x128
  slices_S128x128_o0_48_S128x1 : S128x128.Slices ![0, 48] S128x1
  slices_S128x128_o48_0_S1x128 : S128x128.Slices ![48, 0] S1x128
  slices_S128x128_o0_49_S128x1 : S128x128.Slices ![0, 49] S128x1
  slices_S128x128_o49_0_S1x128 : S128x128.Slices ![49, 0] S1x128
  slices_S128x128_o0_50_S128x1 : S128x128.Slices ![0, 50] S128x1
  slices_S128x128_o50_0_S1x128 : S128x128.Slices ![50, 0] S1x128
  slices_S128x128_o0_51_S128x1 : S128x128.Slices ![0, 51] S128x1
  slices_S128x128_o51_0_S1x128 : S128x128.Slices ![51, 0] S1x128
  slices_S128x128_o0_52_S128x1 : S128x128.Slices ![0, 52] S128x1
  slices_S128x128_o52_0_S1x128 : S128x128.Slices ![52, 0] S1x128
  slices_S128x128_o0_53_S128x1 : S128x128.Slices ![0, 53] S128x1
  slices_S128x128_o53_0_S1x128 : S128x128.Slices ![53, 0] S1x128
  slices_S128x128_o0_54_S128x1 : S128x128.Slices ![0, 54] S128x1
  slices_S128x128_o54_0_S1x128 : S128x128.Slices ![54, 0] S1x128
  slices_S128x128_o0_55_S128x1 : S128x128.Slices ![0, 55] S128x1
  slices_S128x128_o55_0_S1x128 : S128x128.Slices ![55, 0] S1x128
  slices_S128x128_o0_56_S128x1 : S128x128.Slices ![0, 56] S128x1
  slices_S128x128_o56_0_S1x128 : S128x128.Slices ![56, 0] S1x128
  slices_S128x128_o0_57_S128x1 : S128x128.Slices ![0, 57] S128x1
  slices_S128x128_o57_0_S1x128 : S128x128.Slices ![57, 0] S1x128
  slices_S128x128_o0_58_S128x1 : S128x128.Slices ![0, 58] S128x1
  slices_S128x128_o58_0_S1x128 : S128x128.Slices ![58, 0] S1x128
  slices_S128x128_o0_59_S128x1 : S128x128.Slices ![0, 59] S128x1
  slices_S128x128_o59_0_S1x128 : S128x128.Slices ![59, 0] S1x128
  slices_S128x128_o0_60_S128x1 : S128x128.Slices ![0, 60] S128x1
  slices_S128x128_o60_0_S1x128 : S128x128.Slices ![60, 0] S1x128
  slices_S128x128_o0_61_S128x1 : S128x128.Slices ![0, 61] S128x1
  slices_S128x128_o61_0_S1x128 : S128x128.Slices ![61, 0] S1x128
  slices_S128x128_o0_62_S128x1 : S128x128.Slices ![0, 62] S128x1
  slices_S128x128_o62_0_S1x128 : S128x128.Slices ![62, 0] S1x128
  slices_S128x128_o0_63_S128x1 : S128x128.Slices ![0, 63] S128x1
  slices_S128x128_o63_0_S1x128 : S128x128.Slices ![63, 0] S1x128
  slices_S128x128_o0_64_S128x1 : S128x128.Slices ![0, 64] S128x1
  slices_S128x128_o64_0_S1x128 : S128x128.Slices ![64, 0] S1x128
  slices_S128x128_o0_65_S128x1 : S128x128.Slices ![0, 65] S128x1
  slices_S128x128_o65_0_S1x128 : S128x128.Slices ![65, 0] S1x128
  slices_S128x128_o0_66_S128x1 : S128x128.Slices ![0, 66] S128x1
  slices_S128x128_o66_0_S1x128 : S128x128.Slices ![66, 0] S1x128
  slices_S128x128_o0_67_S128x1 : S128x128.Slices ![0, 67] S128x1
  slices_S128x128_o67_0_S1x128 : S128x128.Slices ![67, 0] S1x128
  slices_S128x128_o0_68_S128x1 : S128x128.Slices ![0, 68] S128x1
  slices_S128x128_o68_0_S1x128 : S128x128.Slices ![68, 0] S1x128
  slices_S128x128_o0_69_S128x1 : S128x128.Slices ![0, 69] S128x1
  slices_S128x128_o69_0_S1x128 : S128x128.Slices ![69, 0] S1x128
  slices_S128x128_o0_70_S128x1 : S128x128.Slices ![0, 70] S128x1
  slices_S128x128_o70_0_S1x128 : S128x128.Slices ![70, 0] S1x128
  slices_S128x128_o0_71_S128x1 : S128x128.Slices ![0, 71] S128x1
  slices_S128x128_o71_0_S1x128 : S128x128.Slices ![71, 0] S1x128
  slices_S128x128_o0_72_S128x1 : S128x128.Slices ![0, 72] S128x1
  slices_S128x128_o72_0_S1x128 : S128x128.Slices ![72, 0] S1x128
  slices_S128x128_o0_73_S128x1 : S128x128.Slices ![0, 73] S128x1
  slices_S128x128_o73_0_S1x128 : S128x128.Slices ![73, 0] S1x128
  slices_S128x128_o0_74_S128x1 : S128x128.Slices ![0, 74] S128x1
  slices_S128x128_o74_0_S1x128 : S128x128.Slices ![74, 0] S1x128
  slices_S128x128_o0_75_S128x1 : S128x128.Slices ![0, 75] S128x1
  slices_S128x128_o75_0_S1x128 : S128x128.Slices ![75, 0] S1x128
  slices_S128x128_o0_76_S128x1 : S128x128.Slices ![0, 76] S128x1
  slices_S128x128_o76_0_S1x128 : S128x128.Slices ![76, 0] S1x128
  slices_S128x128_o0_77_S128x1 : S128x128.Slices ![0, 77] S128x1
  slices_S128x128_o77_0_S1x128 : S128x128.Slices ![77, 0] S1x128
  slices_S128x128_o0_78_S128x1 : S128x128.Slices ![0, 78] S128x1
  slices_S128x128_o78_0_S1x128 : S128x128.Slices ![78, 0] S1x128
  slices_S128x128_o0_79_S128x1 : S128x128.Slices ![0, 79] S128x1
  slices_S128x128_o79_0_S1x128 : S128x128.Slices ![79, 0] S1x128
  slices_S128x128_o0_80_S128x1 : S128x128.Slices ![0, 80] S128x1
  slices_S128x128_o80_0_S1x128 : S128x128.Slices ![80, 0] S1x128
  slices_S128x128_o0_81_S128x1 : S128x128.Slices ![0, 81] S128x1
  slices_S128x128_o81_0_S1x128 : S128x128.Slices ![81, 0] S1x128
  slices_S128x128_o0_82_S128x1 : S128x128.Slices ![0, 82] S128x1
  slices_S128x128_o82_0_S1x128 : S128x128.Slices ![82, 0] S1x128
  slices_S128x128_o0_83_S128x1 : S128x128.Slices ![0, 83] S128x1
  slices_S128x128_o83_0_S1x128 : S128x128.Slices ![83, 0] S1x128
  slices_S128x128_o0_84_S128x1 : S128x128.Slices ![0, 84] S128x1
  slices_S128x128_o84_0_S1x128 : S128x128.Slices ![84, 0] S1x128
  slices_S128x128_o0_85_S128x1 : S128x128.Slices ![0, 85] S128x1
  slices_S128x128_o85_0_S1x128 : S128x128.Slices ![85, 0] S1x128
  slices_S128x128_o0_86_S128x1 : S128x128.Slices ![0, 86] S128x1
  slices_S128x128_o86_0_S1x128 : S128x128.Slices ![86, 0] S1x128
  slices_S128x128_o0_87_S128x1 : S128x128.Slices ![0, 87] S128x1
  slices_S128x128_o87_0_S1x128 : S128x128.Slices ![87, 0] S1x128
  slices_S128x128_o0_88_S128x1 : S128x128.Slices ![0, 88] S128x1
  slices_S128x128_o88_0_S1x128 : S128x128.Slices ![88, 0] S1x128
  slices_S128x128_o0_89_S128x1 : S128x128.Slices ![0, 89] S128x1
  slices_S128x128_o89_0_S1x128 : S128x128.Slices ![89, 0] S1x128
  slices_S128x128_o0_90_S128x1 : S128x128.Slices ![0, 90] S128x1
  slices_S128x128_o90_0_S1x128 : S128x128.Slices ![90, 0] S1x128
  slices_S128x128_o0_91_S128x1 : S128x128.Slices ![0, 91] S128x1
  slices_S128x128_o91_0_S1x128 : S128x128.Slices ![91, 0] S1x128
  slices_S128x128_o0_92_S128x1 : S128x128.Slices ![0, 92] S128x1
  slices_S128x128_o92_0_S1x128 : S128x128.Slices ![92, 0] S1x128
  slices_S128x128_o0_93_S128x1 : S128x128.Slices ![0, 93] S128x1
  slices_S128x128_o93_0_S1x128 : S128x128.Slices ![93, 0] S1x128
  slices_S128x128_o0_94_S128x1 : S128x128.Slices ![0, 94] S128x1
  slices_S128x128_o94_0_S1x128 : S128x128.Slices ![94, 0] S1x128
  slices_S128x128_o0_95_S128x1 : S128x128.Slices ![0, 95] S128x1
  slices_S128x128_o95_0_S1x128 : S128x128.Slices ![95, 0] S1x128
  slices_S128x128_o0_96_S128x1 : S128x128.Slices ![0, 96] S128x1
  slices_S128x128_o96_0_S1x128 : S128x128.Slices ![96, 0] S1x128
  slices_S128x128_o0_97_S128x1 : S128x128.Slices ![0, 97] S128x1
  slices_S128x128_o97_0_S1x128 : S128x128.Slices ![97, 0] S1x128
  slices_S128x128_o0_98_S128x1 : S128x128.Slices ![0, 98] S128x1
  slices_S128x128_o98_0_S1x128 : S128x128.Slices ![98, 0] S1x128
  slices_S128x128_o0_99_S128x1 : S128x128.Slices ![0, 99] S128x1
  slices_S128x128_o99_0_S1x128 : S128x128.Slices ![99, 0] S1x128
  slices_S128x128_o0_100_S128x1 : S128x128.Slices ![0, 100] S128x1
  slices_S128x128_o100_0_S1x128 : S128x128.Slices ![100, 0] S1x128
  slices_S128x128_o0_101_S128x1 : S128x128.Slices ![0, 101] S128x1
  slices_S128x128_o101_0_S1x128 : S128x128.Slices ![101, 0] S1x128
  slices_S128x128_o0_102_S128x1 : S128x128.Slices ![0, 102] S128x1
  slices_S128x128_o102_0_S1x128 : S128x128.Slices ![102, 0] S1x128
  slices_S128x128_o0_103_S128x1 : S128x128.Slices ![0, 103] S128x1
  slices_S128x128_o103_0_S1x128 : S128x128.Slices ![103, 0] S1x128
  slices_S128x128_o0_104_S128x1 : S128x128.Slices ![0, 104] S128x1
  slices_S128x128_o104_0_S1x128 : S128x128.Slices ![104, 0] S1x128
  slices_S128x128_o0_105_S128x1 : S128x128.Slices ![0, 105] S128x1
  slices_S128x128_o105_0_S1x128 : S128x128.Slices ![105, 0] S1x128
  slices_S128x128_o0_106_S128x1 : S128x128.Slices ![0, 106] S128x1
  slices_S128x128_o106_0_S1x128 : S128x128.Slices ![106, 0] S1x128
  slices_S128x128_o0_107_S128x1 : S128x128.Slices ![0, 107] S128x1
  slices_S128x128_o107_0_S1x128 : S128x128.Slices ![107, 0] S1x128
  slices_S128x128_o0_108_S128x1 : S128x128.Slices ![0, 108] S128x1
  slices_S128x128_o108_0_S1x128 : S128x128.Slices ![108, 0] S1x128
  slices_S128x128_o0_109_S128x1 : S128x128.Slices ![0, 109] S128x1
  slices_S128x128_o109_0_S1x128 : S128x128.Slices ![109, 0] S1x128
  slices_S128x128_o0_110_S128x1 : S128x128.Slices ![0, 110] S128x1
  slices_S128x128_o110_0_S1x128 : S128x128.Slices ![110, 0] S1x128
  slices_S128x128_o0_111_S128x1 : S128x128.Slices ![0, 111] S128x1
  slices_S128x128_o111_0_S1x128 : S128x128.Slices ![111, 0] S1x128
  slices_S128x128_o0_112_S128x1 : S128x128.Slices ![0, 112] S128x1
  slices_S128x128_o112_0_S1x128 : S128x128.Slices ![112, 0] S1x128
  slices_S128x128_o0_113_S128x1 : S128x128.Slices ![0, 113] S128x1
  slices_S128x128_o113_0_S1x128 : S128x128.Slices ![113, 0] S1x128
  slices_S128x128_o0_114_S128x1 : S128x128.Slices ![0, 114] S128x1
  slices_S128x128_o114_0_S1x128 : S128x128.Slices ![114, 0] S1x128
  slices_S128x128_o0_115_S128x1 : S128x128.Slices ![0, 115] S128x1
  slices_S128x128_o115_0_S1x128 : S128x128.Slices ![115, 0] S1x128
  slices_S128x128_o0_116_S128x1 : S128x128.Slices ![0, 116] S128x1
  slices_S128x128_o116_0_S1x128 : S128x128.Slices ![116, 0] S1x128
  slices_S128x128_o0_117_S128x1 : S128x128.Slices ![0, 117] S128x1
  slices_S128x128_o117_0_S1x128 : S128x128.Slices ![117, 0] S1x128
  slices_S128x128_o0_118_S128x1 : S128x128.Slices ![0, 118] S128x1
  slices_S128x128_o118_0_S1x128 : S128x128.Slices ![118, 0] S1x128
  slices_S128x128_o0_119_S128x1 : S128x128.Slices ![0, 119] S128x1
  slices_S128x128_o119_0_S1x128 : S128x128.Slices ![119, 0] S1x128
  slices_S128x128_o0_120_S128x1 : S128x128.Slices ![0, 120] S128x1
  slices_S128x128_o120_0_S1x128 : S128x128.Slices ![120, 0] S1x128
  slices_S128x128_o0_121_S128x1 : S128x128.Slices ![0, 121] S128x1
  slices_S128x128_o121_0_S1x128 : S128x128.Slices ![121, 0] S1x128
  slices_S128x128_o0_122_S128x1 : S128x128.Slices ![0, 122] S128x1
  slices_S128x128_o122_0_S1x128 : S128x128.Slices ![122, 0] S1x128
  slices_S128x128_o0_123_S128x1 : S128x128.Slices ![0, 123] S128x1
  slices_S128x128_o123_0_S1x128 : S128x128.Slices ![123, 0] S1x128
  slices_S128x128_o0_124_S128x1 : S128x128.Slices ![0, 124] S128x1
  slices_S128x128_o124_0_S1x128 : S128x128.Slices ![124, 0] S1x128
  slices_S128x128_o0_125_S128x1 : S128x128.Slices ![0, 125] S128x1
  slices_S128x128_o125_0_S1x128 : S128x128.Slices ![125, 0] S1x128
  slices_S128x128_o0_126_S128x1 : S128x128.Slices ![0, 126] S128x1
  slices_S128x128_o126_0_S1x128 : S128x128.Slices ![126, 0] S1x128
  slices_S128x128_o0_127_S128x1 : S128x128.Slices ![0, 127] S128x1
  slices_S128x128_o127_0_S1x128 : S128x128.Slices ![127, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x1024.size a
  k0_off2_inb : ∀ k0_t1 : Fin k0_t1_loop.trips, ∀ a, (k0_off2 k0_t1) a + S128x128.size a ≤ S1024x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x1024.size a
  hwx0_3 : ∀ i : grid0.Coords, EltTy.bits .f32 = 32 ∨ (Rect.block (s := S128x1024) S128x128.size (cc0_transform_3 i) (hinb0_3 i)).WholeWords (EltTy.packing .f32)

variable [Facts₀]

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S1024 : Shape := ⟨1, ![1024]⟩
abbrev S1x1024x1024 : Shape := ⟨3, ![1, 1024, 1024]⟩
abbrev S128x1x1024 : Shape := ⟨3, ![128, 1, 1024]⟩
abbrev S128x1024x1024 : Shape := ⟨3, ![128, 1024, 1024]⟩
abbrev S_ : Shape := ⟨0, ![]⟩
abbrev S128x1024x1 : Shape := ⟨3, ![128, 1024, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1x1024x1024, .f32⟩
  | .hbm, ⟨4, _⟩ => ⟨S128x1x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S_, .f32⟩
  | .hbm, ⟨9, _⟩ => ⟨S128x1024, .f32⟩
  | .hbm, ⟨10, _⟩ => ⟨S_, .f32⟩
  | .hbm, ⟨11, _⟩ => ⟨S128x1024x1024, .f32⟩
  | .hbm, ⟨12, _⟩ => ⟨S128x1024x1024, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024x1, .f32⟩
  | .hbm, ⟨19, _⟩ => ⟨S128x1024x1024, .f32⟩
  | .hbm, ⟨20, _⟩ => ⟨S128x1024x1024, .f32⟩
  | .hbm, ⟨21, _⟩ => ⟨S128x1024x1024, .f32⟩
  | .hbm, ⟨22, _⟩ => ⟨S_, .f32⟩
  | .hbm, ⟨23, _⟩ => ⟨S128x1024, .f32⟩
  | .hbm, ⟨24, _⟩ => ⟨S128x1024x1, .f32⟩
  | .hbm, ⟨25, _⟩ => ⟨S128x1024x1024, .f32⟩
  | .hbm, ⟨26, _⟩ => ⟨S128x1024x1024, .f32⟩
  | .hbm, ⟨27, _⟩ => ⟨S128x1024x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S1x1024, .f32⟩
  | .hbm, ⟨33, _⟩ => ⟨S128x1024, .f32⟩
  | .hbm, ⟨34, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S1024x1024_S1x1024x1024_1_2 : S1024x1024.BroadcastsInDim S1x1024x1024 (![1, 2] : Fin 2 → Fin S1x1024x1024.rank)
  bcast_S128x1024_S128x1x1024_0_2 : S128x1024.BroadcastsInDim S128x1x1024 (![0, 2] : Fin 2 → Fin S128x1x1024.rank)
  bcast_S1x1024x1024_S128x1024x1024_0_1_2 : S1x1024x1024.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  reducesTo_S128x1024x1024_S128x1024_d2 : S128x1024x1024.ReducesTo [2] S128x1024
  h_S_ : 0 < S_.numel
  bcast_S_S128x1024x1024 : S_.BroadcastsInDim S128x1024x1024 (![] : Fin 0 → Fin S128x1024x1024.rank)
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)

variable [Facts₀]

class Facts : Prop extends Facts₀ where

variable [Facts]
-- ==== Proof.LibRunningMax.lean ====
/-
  The running maximum behind a max-plus ("tropical") matrix product on the extended reals.

  A max-plus product entry is `max_i (x i + w i)`, accumulated one term at a time from an initial value:
  `acc ← max acc (g i)`. `rm g a lo n` is that accumulation of the `n` terms `g lo, …, g (lo + n - 1)` onto `a`.
  Three laws: accumulating `n` terms and then `m` more is accumulating `n + m` (`rm_add`); the result depends
  only on the terms met (`rm_congr`); and its upper bounds are the common upper bounds of `a` and of the terms
  (`rm_le_iff`), so that the accumulation from `−∞` of all terms over `Fin N` is the fold of `max` from `⊥`
  (`rm_bot_eq_fold`) — the order in which a maximum is taken does not matter.
-/
import Mathlib.Data.EReal.Basic
import Mathlib.Data.Finset.Fold
import Mathlib.Data.Fintype.Basic

namespace Cert.Tropical

/-- The running maximum: `a` joined with the `n` terms `g lo, …, g (lo + n - 1)`, one at a time. -/
noncomputable def rm (g : ℕ → EReal) (a : EReal) (lo : ℕ) : ℕ → EReal
  | 0 => a
  | n + 1 => max (rm g a lo n) (g (lo + n))

@[simp] theorem rm_zero (g : ℕ → EReal) (a : EReal) (lo : ℕ) : rm g a lo 0 = a := rfl

theorem rm_succ (g : ℕ → EReal) (a : EReal) (lo n : ℕ) : rm g a lo (n + 1) = max (rm g a lo n) (g (lo + n)) := rfl

/-- Accumulating `n` terms, then the next `m`, is accumulating `n + m`. -/
theorem rm_add (g : ℕ → EReal) (a : EReal) (lo n m : ℕ) : rm g (rm g a lo n) (lo + n) m = rm g a lo (n + m) := by
  induction m with
  | zero => rfl
  | succ m ih => rw [rm_succ, ih, ← Nat.add_assoc, rm_succ, Nat.add_assoc]

/-- The running maximum depends only on the terms it meets. -/
theorem rm_congr (f g : ℕ → EReal) (a : EReal) (lo lo' n : ℕ) (h : ∀ j, j < n → f (lo + j) = g (lo' + j)) :
    rm f a lo n = rm g a lo' n := by
  induction n with
  | zero => rfl
  | succ n ih => rw [rm_succ, rm_succ, ih (fun j hj => h j (Nat.lt_succ_of_lt hj)), h n (Nat.lt_succ_self n)]

/-- The upper bounds of the running maximum: those of the initial value and of every term met. -/
theorem rm_le_iff (g : ℕ → EReal) (a : EReal) (lo n : ℕ) (z : EReal) :
    rm g a lo n ≤ z ↔ a ≤ z ∧ ∀ j, j < n → g (lo + j) ≤ z := by
  induction n with
  | zero => exact ⟨fun h => ⟨h, fun j hj => absurd hj (Nat.not_lt_zero j)⟩, fun h => h.1⟩
  | succ n ih =>
    rw [rm_succ, max_le_iff, ih]
    constructor
    · rintro ⟨⟨ha, hlt⟩, hn⟩
      refine ⟨ha, fun j hj => ?_⟩
      rcases Nat.lt_succ_iff_lt_or_eq.mp hj with h | h
      · exact hlt j h
      · rw [h]; exact hn
    · rintro ⟨ha, hall⟩
      exact ⟨⟨ha, fun j hj => hall j (Nat.lt_succ_of_lt hj)⟩, hall n (Nat.lt_succ_self n)⟩

/-- From `−∞`, the running maximum of all `N` terms is the fold of `max` from `⊥` over `Fin N`. -/
theorem rm_bot_eq_fold (N : ℕ) (g : ℕ → EReal) (f : Fin N → EReal) (h : ∀ i : Fin N, g i.val = f i) :
    rm g ⊥ 0 N = (Finset.univ : Finset (Fin N)).fold max ⊥ f := by
  refine eq_of_forall_ge_iff fun z => ?_
  rw [rm_le_iff, Finset.fold_max_le]
  constructor
  · rintro ⟨hb, hall⟩
    refine ⟨hb, fun i _ => ?_⟩
    have := hall i.val i.isLt
    rwa [Nat.zero_add, h i] at this
  · rintro ⟨hb, hall⟩
    refine ⟨hb, fun j hj => ?_⟩
    have := hall ⟨j, hj⟩ (Finset.mem_univ _)
    rwa [Nat.zero_add, h ⟨j, hj⟩]

end Cert.Tropical
-- ==== Proof.Step.lean ====
/-
  One step of the max-plus accumulation, read at an entry.

  The kernel holds a 128×128 tile `v` of the left operand (rows `p`, reduction index `j`) and a 128×128 tile `w` of the
  transposed right operand (reduction index `j`, columns `q`). Step `j` takes column `j` of `v` (a 128×1 slice) and row
  `j` of `w` (a 1×128 slice), spreads both over the 128×128 tile, adds them and joins the sum into the accumulator by
  `max`. At entry `(p, q)` that is `acc ← max acc (v p j + w j q)`: the term `term v w p q j`.
  The last operation of the body adds the bias row, spread over the rows: at `(p, q)` it adds `b 0 q`.
-/
import Idealize.ShloMosaic.PureOps.Ideal
import Idealize.ShloMosaic.Lib.ValueIdx
import Idealize.ShloMosaic.Lib.Pipeline.Value
import proofs.«156442_j23295902613810_2_alg».proof.Proof.LibRunningMax

noncomputable section

namespace Cert.Tropical

open Idealize.ShloMosaic Idealize.ShloMosaic.ValueIdx

/-- The 128×128 tile, its column and row slices. -/
abbrev T128 : Shape := ⟨2, ![128, 128]⟩
abbrev Col128 : Shape := ⟨2, ![128, 1]⟩
abbrev Row128 : Shape := ⟨2, ![1, 128]⟩

/-- Step `j`'s term at entry `(p, q)`: `v p j + w j q` (`−∞`, the neutral element of `max`, past the tile). -/
def term (v w : T128.Idx → EReal) (p q : Fin 128) (j : ℕ) : EReal :=
  if h : j < 128 then v (ix2 p ⟨j, h⟩) + w (ix2 ⟨j, h⟩ q) else ⊥

theorem term_of_lt (v w : T128.Idx → EReal) (p q : Fin 128) (j : ℕ) (h : j < 128) :
    term v w p q j = v (ix2 p ⟨j, h⟩) + w (ix2 ⟨j, h⟩ q) := dif_pos h

/-- Column `j` of the tile, spread over the columns, at `(p, q)` is `v p j`. -/
theorem col_spread_apply (v : T128.Idx → EReal) (j : ℕ) (hs : T128.Slices ![0, j] Col128) (hb : Col128.Broadcasts T128)
    (hj : j < 128) (p q : Fin 128) :
    broadcastTo T128 (extractStridedSlice Col128 ![0, j] v hs) hb (ix2 p q) = v (ix2 p ⟨j, hj⟩) := by
  refine (broadcastTo_apply _ hb (ix2 p q) (ix2 p (0 : Fin 1)) (fun a => ?_)).trans ?_
  · match a with
    | ⟨0, _⟩ => show p.val = if (128 : ℕ) = 1 then 0 else p.val; rw [if_neg (by decide)]
    | ⟨1, _⟩ => show 0 = if (1 : ℕ) = 1 then 0 else q.val; rw [if_pos rfl]
  · refine extractStridedSlice_apply _ v hs _ _ (fun a => ?_)
    match a with
    | ⟨0, _⟩ => show p.val = 0 + p.val; omega
    | ⟨1, _⟩ => show j = j + 0; omega

/-- Row `j` of the tile, spread over the rows, at `(p, q)` is `w j q`. -/
theorem row_spread_apply (w : T128.Idx → EReal) (j : ℕ) (hs : T128.Slices ![j, 0] Row128) (hb : Row128.Broadcasts T128)
    (hj : j < 128) (p q : Fin 128) :
    broadcastTo T128 (extractStridedSlice Row128 ![j, 0] w hs) hb (ix2 p q) = w (ix2 ⟨j, hj⟩ q) := by
  refine (broadcastTo_apply _ hb (ix2 p q) (ix2 (0 : Fin 1) q) (fun a => ?_)).trans ?_
  · match a with
    | ⟨0, _⟩ => show 0 = if (1 : ℕ) = 1 then 0 else p.val; rw [if_pos rfl]
    | ⟨1, _⟩ => show q.val = if (128 : ℕ) = 1 then 0 else q.val; rw [if_neg (by decide)]
  · refine extractStridedSlice_apply _ w hs _ _ (fun a => ?_)
    match a with
    | ⟨0, _⟩ => show j = j + 0; omega
    | ⟨1, _⟩ => show q.val = 0 + q.val; omega

/-- ONE STEP at an entry: the accumulator joined with the step's term. -/
theorem step_apply (acc v w : FVec Ideal T128 .f32) (j : ℕ) (hs1 : T128.Slices ![0, j] Col128) (hs2 : T128.Slices ![j, 0] Row128)
    (hb1 : Col128.Broadcasts T128) (hb2 : Row128.Broadcasts T128) (p q : Fin 128) :
    maximumf acc (addf (broadcastTo T128 (extractStridedSlice Col128 ![0, j] v hs1) hb1)
        (broadcastTo T128 (extractStridedSlice Row128 ![j, 0] w hs2) hb2)) (ix2 p q)
      = max (acc (ix2 p q)) (term v w p q j) := by
  have hj : j < 128 := by
    have := hs1.2 ⟨1, by decide⟩
    have e : (![0, j] : Fin 2 → ℕ) ⟨1, by decide⟩ + Col128.size ((⟨1, by decide⟩ : Fin T128.rank).cast hs1.1.symm) ≤ T128.size ⟨1, by decide⟩ := this
    have e' : j + 1 ≤ 128 := e
    omega
  rw [maximumf_apply, addf_apply, col_spread_apply v j hs1 hb1 hj, row_spread_apply w j hs2 hb2 hj, term_of_lt v w p q j hj]

/-- The bias row added to the tile: at `(p, q)` it adds `b 0 q`. -/
theorem bias_apply (t : FVec Ideal T128 .f32) (b : Row128.Idx → EReal) (hc : Row128.ShapeCasts Row128) (hb : Row128.Broadcasts T128)
    (p q : Fin 128) :
    addf t (broadcastTo T128 (shapeCast Row128 b hc) hb) (ix2 p q) = t (ix2 p q) + b (ix2 (0 : Fin 1) q) := by
  rw [addf_apply, shapeCast_self]
  congr 1
  refine broadcastTo_apply _ hb (ix2 p q) (ix2 (0 : Fin 1) q) (fun a => ?_)
  match a with
  | ⟨0, _⟩ => show 0 = if (1 : ℕ) = 1 then 0 else p.val; rw [if_pos rfl]
  | ⟨1, _⟩ => show q.val = if (128 : ℕ) = 1 then 0 else q.val; rw [if_neg (by decide)]

end Cert.Tropical

end
-- ==== Proof.Trip.lean ====
/-
  One trip of the kernel's reduction loop, read at an entry.

  Trip `k` loads the 128×128 tile of the left operand at columns `128k …` and the tile of the transposed right operand at
  rows `128k …`, and runs the 128 max-plus steps `j = 0, …, 127` over them. At entry `(p, q)` of the accumulator that is the
  running maximum of the tile's 128 terms onto the carried value.
-/
import proofs.«156442_j23295902613810_2_alg».proof.Proof.Gen.KernelIdeal.Frame
import proofs.«156442_j23295902613810_2_alg».proof.Proof.Step

set_option maxRecDepth 16384

noncomputable section

namespace Cert.KernelIdeal.MaxPlus

open Cert.KernelIdeal Cert.KernelIdeal.Gen Idealize.ShloMosaic Idealize.ShloMosaic.TcCoe Idealize.SL.Sem
open Idealize.ShloMosaic.Tactic Idealize.ShloMosaic.ValueIdx Cert.Tropical

/-- The tile of the left operand trip `k` loads, and the tile of the transposed right operand. -/
abbrev tileL (arg1 : Memref sig .tc .vmem S128x1024 .f32) (X1 : BufTy.Contents (Elt Ideal) arg1.view.ty) (k : Fin k0_t1_loop.trips) :
    S128x128.Idx → EReal :=
  View.readAt (Elt Ideal) arg1.view (Rect.unit (s := S128x1024) (k0_off1 k) S128x128.size (k0_off1_inb k)).toLoadRect X1
abbrev tileR (arg2 : Memref sig .tc .vmem S1024x128 .f32) (X2 : BufTy.Contents (Elt Ideal) arg2.view.ty) (k : Fin k0_t1_loop.trips) :
    S128x128.Idx → EReal :=
  View.readAt (Elt Ideal) arg2.view (Rect.unit (s := S1024x128) (k0_off2 k) S128x128.size (k0_off2_inb k)).toLoadRect X2

set_option maxHeartbeats 4000000 in
/-- ONE TRIP at an entry: the carried value joined with the 128 terms of the two tiles. -/
theorem trip_apply (𝒱 : Variants) (c : Dev nD) (bd : Option 𝒱.V) (i : grid0.Coords) (arg1 : Memref sig .tc .vmem S128x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S128x128 .f32) (harg4 : arg4.IsWhole)
    (X1 : BufTy.Contents (Elt Ideal) arg1.view.ty) (X2 : BufTy.Contents (Elt Ideal) arg2.view.ty) (k : Fin k0_t1_loop.trips) (acc : FVec Ideal S128x128 .f32)
    (p q : Fin 128) :
    tripR_k0_t1 (F := Ideal) 𝒱 c bd i arg1 harg1 arg2 harg2 arg3 harg3 arg4 harg4 X1 X2 k acc (ix2 p q)
      = rm (term (tileL arg1 X1 k) (tileR arg2 X2 k) p q) (acc (ix2 p q)) 0 128 := by
  unfold tripR_k0_t1 trip_k0_t1
  dsimp only [tileL, tileR]
  unfold k0_pay2
  sl_unfold_run_names
  simp only [shapeCast_self]
  generalize View.readAt (Elt Ideal) arg1.view (Rect.unit (s := S128x1024) (k0_off1 k) S128x128.size _).toLoadRect X1 = v
  generalize View.readAt (Elt Ideal) arg2.view (Rect.unit (s := S1024x128) (k0_off2 k) S128x128.size _).toLoadRect X2 = w
  simp only [step_apply]
  rfl

end Cert.KernelIdeal.MaxPlus

end
-- ==== Proof.Loop.lean ====
/-
  The kernel's reduction loop, read at an entry.

  The body holds the staged 128×1024 block `X` of the left operand and the staged 1024×128 block `W` of the transposed
  right operand. Entry `(p, q)` of their max-plus product has the 1024 terms `X p i + W i q` (`gterm`). Trip `k`'s tiles
  are columns / rows `128k, …, 128k + 127` of the blocks, so its 128 terms are terms `128k + j` of the product; after `n`
  trips the carried value is the running maximum of the first `128·n` terms onto the initial value.
-/
import proofs.«156442_j23295902613810_2_alg».proof.Proof.Trip

set_option maxRecDepth 16384

noncomputable section

namespace Cert.KernelIdeal.MaxPlus

open Cert.KernelIdeal Cert.KernelIdeal.Gen Idealize.ShloMosaic Idealize.ShloMosaic.TcCoe Idealize.SL.Sem
open Idealize.ShloMosaic.ValueIdx Cert.Tropical

/-- Term `i` of entry `(p, q)` of the max-plus product of the blocks: `X p i + W i q` (`−∞` past the reduction axis). -/
def gterm (X : S128x1024.Idx → EReal) (W : S1024x128.Idx → EReal) (p q : Fin 128) (i : ℕ) : EReal :=
  if h : i < 1024 then X (ix2 p ⟨i, h⟩) + W (ix2 ⟨i, h⟩ q) else ⊥

theorem gterm_of_lt (X : S128x1024.Idx → EReal) (W : S1024x128.Idx → EReal) (p q : Fin 128) (i : ℕ) (h : i < 1024) :
    gterm X W p q i = X (ix2 p ⟨i, h⟩) + W (ix2 ⟨i, h⟩ q) := dif_pos h

/-- The loop makes eight trips. -/
theorem trips_eq : k0_t1_loop.trips = 8 := by decide

variable (arg1 : Memref sig .tc .vmem S128x1024 .f32) (arg2 : Memref sig .tc .vmem S1024x128 .f32)
  (X1 : BufTy.Contents (Elt Ideal) arg1.view.ty) (X2 : BufTy.Contents (Elt Ideal) arg2.view.ty)

/-- Entry `(p, j)` of trip `k`'s left tile is entry `(p, 128k + j)` of the block. -/
theorem tileL_apply (k : Fin k0_t1_loop.trips) (p : Fin 128) (j : ℕ) (hj : j < 128) (h : 128 * k.val + j < 1024) :
    tileL arg1 X1 k (ix2 p ⟨j, hj⟩) = arg1.view.read (Elt Ideal) X1 (ix2 p ⟨128 * k.val + j, h⟩) := by
  show arg1.view.read (Elt Ideal) X1 ((Rect.unit (s := S128x1024) (k0_off1 k) S128x128.size (k0_off1_inb k)).idx (ix2 p ⟨j, hj⟩)) = _
  refine congrArg _ (funext fun a => Fin.ext ?_)
  match a with
  | ⟨0, _⟩ => show (k0_off1 k) 0 + 1 * p.val = p.val; rw [k0_off1_eq k]; show 0 + 1 * p.val = p.val; omega
  | ⟨1, _⟩ => show (k0_off1 k) 1 + 1 * j = 128 * k.val + j; rw [k0_off1_eq k]; show 128 * k.val + 1 * j = 128 * k.val + j; omega

/-- Entry `(j, q)` of trip `k`'s right tile is entry `(128k + j, q)` of the block. -/
theorem tileR_apply (k : Fin k0_t1_loop.trips) (q : Fin 128) (j : ℕ) (hj : j < 128) (h : 128 * k.val + j < 1024) :
    tileR arg2 X2 k (ix2 ⟨j, hj⟩ q) = arg2.view.read (Elt Ideal) X2 (ix2 ⟨128 * k.val + j, h⟩ q) := by
  show arg2.view.read (Elt Ideal) X2 ((Rect.unit (s := S1024x128) (k0_off2 k) S128x128.size (k0_off2_inb k)).idx (ix2 ⟨j, hj⟩ q)) = _
  refine congrArg _ (funext fun a => Fin.ext ?_)
  match a with
  | ⟨0, _⟩ => show (k0_off2 k) 0 + 1 * j = 128 * k.val + j; rw [k0_off2_eq k]; show 128 * k.val + 1 * j = 128 * k.val + j; omega
  | ⟨1, _⟩ => show (k0_off2 k) 1 + 1 * q.val = q.val; rw [k0_off2_eq k]; show 0 + 1 * q.val = q.val; omega

/-- Trip `k`'s term `j` is the product's term `128k + j`. -/
theorem term_tile (k : Fin k0_t1_loop.trips) (p q : Fin 128) (j : ℕ) (hj : j < 128) :
    term (tileL arg1 X1 k) (tileR arg2 X2 k) p q (0 + j)
      = gterm (arg1.view.read (Elt Ideal) X1) (arg2.view.read (Elt Ideal) X2) p q (128 * k.val + j) := by
  have hk : k.val < 8 := Nat.lt_of_lt_of_le k.isLt (Nat.le_of_eq trips_eq)
  have h : 128 * k.val + j < 1024 := by omega
  rw [Nat.zero_add, term_of_lt _ _ p q j hj, gterm_of_lt _ _ p q _ h, tileL_apply arg1 X1 k p j hj h, tileR_apply arg2 X2 k q j hj h]

/-- THE LOOP at an entry: before trip `n` the carried value is the initial one joined with the first `128·n` terms. -/
theorem loop_apply (𝒱 : Variants) (c : Dev nD) (bd : Option 𝒱.V) (i : grid0.Coords) (harg1 : arg1.IsWhole) (harg2 : arg2.IsWhole)
    (arg3 : Memref sig .tc .vmem S1x128 .f32) (harg3 : arg3.IsWhole) (arg4 : Memref sig .tc .vmem S128x128 .f32) (harg4 : arg4.IsWhole)
    (init : FVec Ideal S128x128 .f32) (p q : Fin 128) (n : ℕ) (hn : n ≤ k0_t1_loop.trips) :
    st_k0_t1 (F := Ideal) 𝒱 c bd i arg1 harg1 arg2 harg2 arg3 harg3 arg4 harg4 X1 X2 init n (ix2 p q)
      = rm (gterm (arg1.view.read (Elt Ideal) X1) (arg2.view.read (Elt Ideal) X2) p q) (init (ix2 p q)) 0 (128 * n) := by
  induction n with
  | zero => rfl
  | succ n ih =>
    have hlt : n < k0_t1_loop.trips := hn
    refine (congrFun (st_k0_t1_succ (F := Ideal) 𝒱 c bd i arg1 harg1 arg2 harg2 arg3 harg3 arg4 harg4 X1 X2 init ⟨n, hlt⟩) (ix2 p q)).trans ?_
    rw [trip_apply, rm_congr _ (gterm (arg1.view.read (Elt Ideal) X1) (arg2.view.read (Elt Ideal) X2) p q) _ 0 (128 * n) 128
      (fun j hj => term_tile arg1 arg2 X1 X2 ⟨n, hlt⟩ p q j hj)]
    show rm _ (st_k0_t1 (F := Ideal) 𝒱 c bd i arg1 harg1 arg2 harg2 arg3 harg3 arg4 harg4 X1 X2 init n (ix2 p q)) (128 * n) 128 = _
    rw [ih (Nat.le_of_lt hlt)]
    have e := rm_add (gterm (arg1.view.read (Elt Ideal) X1) (arg2.view.read (Elt Ideal) X2) p q) (init (ix2 p q)) 0 (128 * n) 128
    rw [Nat.zero_add] at e
    rw [e, Nat.mul_succ]

end Cert.KernelIdeal.MaxPlus

end
-- ==== Proof.Block.lean ====
/-
  What the kernel body leaves in its output block, read at an entry.

  The body starts the accumulator at the named constant (`−∞` on the extended reals), runs the eight trips of the reduction
  loop over the staged blocks `X` (128×1024, left operand) and `W` (1024×128, transposed right operand), adds the staged
  bias row `b` (1×128) and stores the tile whole. Entry `(p, q)` of the stored tile is therefore
  `max_i (X p i + W i q) + b 0 q`, the maximum taken as the fold of `max` from `⊥` over the 1024 reduction indices.
-/
import proofs.«156442_j23295902613810_2_alg».proof.Proof.Loop
import Idealize.ShloMosaic.PureOps.IdealRules

set_option maxRecDepth 16384

noncomputable section

namespace Cert.KernelIdeal.MaxPlus

open Cert.KernelIdeal Cert.KernelIdeal.Gen Idealize.ShloMosaic Idealize.ShloMosaic.TcCoe Idealize.SL.Sem
open Idealize.ShloMosaic.Tactic Idealize.ShloMosaic.ValueIdx Cert.Tropical

/-- The accumulator's initial value: the named constant is `−∞` at the ideal instance, by the certificate's table. -/
theorem neg_big : Named.named (F := Ideal) κ "neg_big" (φ := .f32) 0xFF333332#32 = (⊥ : EReal) :=
  IdealRules.named_const.ideal_named_scalar _ _ _ _ rfl

theorem init_apply (j : S128x128.Idx) : k0_pay1 (F := Ideal) j = (⊥ : EReal) := by
  unfold k0_pay1
  exact neg_big

theorem hz : (![0, 0] : Fin 2 → Nat) = fun _ => 0 := funext fun a => by fin_cases a <;> rfl

/-- Entry `(p, q)` of the max-plus product of the blocks. -/
abbrev maxPlus (X : S128x1024.Idx → EReal) (W : S1024x128.Idx → EReal) (p q : Fin 128) : EReal :=
  (Finset.univ : Finset (Fin 1024)).fold max ⊥ (fun i => X (ix2 p i) + W (ix2 i q))

/-- THE OUTPUT BLOCK at an entry. -/
theorem block_apply (c : Dev nD) (i : grid0.Coords) (arg1 : Memref sig .tc .vmem S128x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S128x128 .f32) (harg4 : arg4.IsWhole)
    (x0 : Vec Ideal S128x1024 .f32) (x1 : Vec Ideal S1024x128 .f32) (x2 : Vec Ideal S1x128 .f32) (p q : Fin 128) :
    out0_A_3 (F := Ideal) c i arg1 harg1 arg2 harg2 arg3 harg3 arg4 harg4 x0 x1 x2 (ix2 p q)
      = maxPlus x0 x1 p q + x2 (ix2 (0 : Fin 1) q) := by
  unfold out0_A_3
  rw [View.read_writes_eq_canon _ _ _ (cover0_A_3 c i arg1 harg1 arg2 harg2 arg3 harg3 arg4 harg4 x0 x1 x2)]
  unfold kernelRun0_A
  dsimp only
  rw [View.canon_unit_zero hz]
  simp only [View.readAt_eq_ld, harg3.read_unread, View.ld_unit_zero (S := S1x128) hz]
  unfold k0_pay3
  rw [bias_apply]
  congr 1
  rw [loop_apply arg1 arg2 (harg1.unread x0) (harg2.unread x1) Variants.none c none i harg1 harg2 arg3 harg3 arg4 harg4
    (k0_pay1 (F := Ideal)) p q _ (le_refl _), harg1.read_unread, harg2.read_unread, init_apply]
  have e : 128 * Scf.trips (0#32) (Scalar.addi 0#32 8#32) 1#32 = 1024 := by
    show 128 * k0_t1_loop.trips = 1024; rw [trips_eq]
  rw [e]
  exact rm_bot_eq_fold 1024 _ _ (fun i => gterm_of_lt x0 x1 p q i.val i.isLt)

end Cert.KernelIdeal.MaxPlus

end
-- ==== Proof.Spec.lean ====
/-
  The function both programs compute: the max-plus ("tropical") linear layer.

  For `x : [128, 1024]`, `w : [1024, 1024]` and `b : [1024]`,
      out[n, o] = max_i (x[n, i] + w[o, i]) + b[o],
  the maximum over the 1024 reduction indices taken as the fold of `max` from `−∞` on the extended reals.
-/
import Idealize.ShloMosaic.PureOps.Ideal
import Idealize.ShloMosaic.Lib.ValueIdx

noncomputable section

namespace Cert.Spec

open Idealize.ShloMosaic Idealize.ShloMosaic.ValueIdx

abbrev SX : Shape := ⟨2, ![128, 1024]⟩
abbrev SW : Shape := ⟨2, ![1024, 1024]⟩
abbrev SB : Shape := ⟨1, ![1024]⟩

/-- Entry `(n, o)` of the max-plus product of `x` with the transpose of `w`. -/
def hard (x : SX.Idx → EReal) (w : SW.Idx → EReal) (n : Fin 128) (o : Fin 1024) : EReal :=
  (Finset.univ : Finset (Fin 1024)).fold max ⊥ (fun i => x (ix2 n i) + w (ix2 o i))

/-- The layer's result. -/
def G (x : SX.Idx → EReal) (w : SW.Idx → EReal) (b : SB.Idx → EReal) : SX.Idx → EReal :=
  fun j => hard x w (j 0) (j 1) + b (ix1 (j 1))

end Cert.Spec

end
-- ==== Proof.KernelValue.lean ====
/-
  The idealized kernel's result array is the max-plus layer of its arguments.

  Before the call the host transposes the weight (`wt[i, o] = w[o, i]`) and views the bias as a 1×1024 row. Grid point
  `t` (of 8) stages all of `x`, columns `128t …` of `wt` and of the bias row, and writes back columns `128t …` of the result.
  Its output tile at `(p, q)` is `max_i (x[p, i] + wt[i, 128t + q]) + bias[0, 128t + q]` (the body's block, read at an
  entry), which is entry `(p, 128t + q)` of the layer. The eight column blocks cover the result array.
-/
import proofs.«156442_j23295902613810_2_alg».proof.Proof.Gen.KernelIdeal.Value
import proofs.«156442_j23295902613810_2_alg».proof.Proof.Block
import proofs.«156442_j23295902613810_2_alg».proof.Proof.Spec
import Idealize.ShloMosaic.Lib.StableHlo.Run

set_option maxRecDepth 16384

noncomputable section

namespace Cert.KernelIdeal.MaxPlus

open Cert.KernelIdeal Cert.KernelIdeal.Gen Idealize.ShloMosaic Idealize.ShloMosaic.TcCoe Idealize.SL.Sem
open Idealize.ShloMosaic.StableHlo Idealize.ShloMosaic.ValueIdx Cert.Tropical
open Idealize.ShloMosaic.Pipeline (Dat)

variable (m : (ℓ : Loc nD τ sig) → Buf (Elt Ideal) ℓ) (ρ : Dev nD → PrngReg)

/-! ## The host operations before the call -/

/-- The region finds the transposed weight: entry `(i, o)` is the weight's entry `(o, i)`. -/
theorem V_wt_apply (c : Dev nD) (i o : Fin 1024) :
    (V m c main_v0 : S1024x1024.Idx → EReal) (ix2 i o) = (m ((c : Thread nD τ).loc main_arg1) : S1024x1024.Idx → EReal) (ix2 o i) := by
  have e : (V m c main_v0 : S1024x1024.Idx → EReal)
      = transpose S1024x1024 [1, 0] (m ((c : Thread nD τ).loc main_arg1) : S1024x1024.Idx → EReal) transposes_S1024x1024_S1024x1024_1_0 := by
    dsimp only [V, hostOps0]; after_results; all_goals rfl
  rw [e]
  refine transpose_apply _ _ _ (ix2 i o) (ix2 o i) (fun b => ?_)
  match b with
  | ⟨0, _⟩ => rfl
  | ⟨1, _⟩ => rfl

/-- The region finds the bias as a row: entry `(0, o)` is the bias's entry `o`. -/
theorem V_bias_apply (c : Dev nD) (o : Fin 1024) :
    (V m c main_v1 : S1x1024.Idx → EReal) (ix2 (0 : Fin 1) o) = (m ((c : Thread nD τ).loc main_arg2) : S1024.Idx → EReal) (ix1 o) := by
  have e : (V m c main_v1 : S1x1024.Idx → EReal)
      = shapeCast S1x1024 (m ((c : Thread nD τ).loc main_arg2) : S1024.Idx → EReal) shapeCasts_S1024_S1x1024 := by
    dsimp only [V, hostOps0]; after_results; all_goals rfl
  rw [e]
  refine shapeCast_apply _ _ (ix2 (0 : Fin 1) o) (ix1 o) ?_
  rw [Shape.rowMajor_val_one, Shape.rowMajor_val_two]
  show o.val = 0 * 1024 + o.val
  omega

/-! ## Each point's block -/

/-- The printed index maps over the grid: `x` is staged whole at every point; the other three windows move along their
    second axis with the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem N_eq : cfg0.N = 8 := by decide

/-- The layer of the arguments as the kernel's result array. -/
abbrev result (c : Dev nD) : S128x1024.Idx → EReal :=
  Cert.Spec.G (m ((c : Thread nD τ).loc main_arg0)) (m ((c : Thread nD τ).loc main_arg1)) (m ((c : Thread nD τ).loc main_arg2))

/-- WHAT POINT `t` WRITES BACK is block `t` of the layer of the arguments. -/
theorem flushed_eq (c : Dev nD) (t : Fin cfg0.N) :
    (dats m 0 c).flushed 3 t = ((cfg0.win 3).blk t).view.read (Elt Ideal) (result m c) := by
  rw [Cert.KernelIdeal.Value.flushed3_A]
  obtain ⟨e00, e01, e10, e11, e20, e21, e30, e31⟩ := idx_facts t
  have ht : t.val < 8 := Nat.lt_of_lt_of_le t.isLt (Nat.le_of_eq N_eq)
  funext j
  obtain ⟨p, q, rfl⟩ : ∃ (p q : Fin 128), j = ix2 p q := ⟨j 0, j 1, eq_ix2 j⟩
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) (ix2 p q) = result m c (((cfg0.win 3).blk t).view.emb (ix2 p q))
  refine (block_apply c (grid0.coords t) (ms0_0 t) (hs0_0 t) (ms0_1 t) (hs0_1 t) (ms0_2 t) (hs0_2 t) (ms0_3 t) (hs0_3 t)
      (iblk m c 0 t) (iblk m c 1 t) (iblk m c 2 t) p q).trans ?_
  have hq : 128 * t.val + q.val < 1024 := by have := q.isLt; omega
  -- where the output tile's entry sits in the result array
  have hout : ((cfg0.win 3).blk t).view.emb (ix2 p q) = (ix2 p ⟨128 * t.val + q.val, hq⟩ : S128x1024.Idx) := by
    funext a; apply Fin.ext
    match a with
    | ⟨0, _⟩ => show win0_3.index t (0 : Fin 2) * 128 + 1 * p.val = p.val; rw [e30]; omega
    | ⟨1, _⟩ => show win0_3.index t (1 : Fin 2) * 128 + 1 * q.val = 128 * t.val + q.val; rw [e31]; omega
  rw [hout]
  show _ = Cert.Spec.hard _ _ p ⟨128 * t.val + q.val, hq⟩ + _
  unfold Cert.Spec.hard maxPlus
  congr 1
  · -- the 1024 terms, one by one
    refine congrArg (fun f => (Finset.univ : Finset (Fin 1024)).fold max ⊥ f) (funext fun i => ?_)
    congr 1
    · show V m c main_arg0 (((cfg0.win 0).blk t).view.emb (ix2 p i)) = _
      rw [← V_main_arg0 m c]
      refine congrArg _ (funext fun a => Fin.ext ?_)
      match a with
      | ⟨0, _⟩ => show win0_0.index t (0 : Fin 2) * 128 + 1 * p.val = p.val; rw [e00]; omega
      | ⟨1, _⟩ => show win0_0.index t (1 : Fin 2) * 1024 + 1 * i.val = i.val; rw [e01]; omega
    · show V m c main_v0 (((cfg0.win 1).blk t).view.emb (ix2 i q)) = _
      rw [← V_wt_apply m c i ⟨128 * t.val + q.val, hq⟩]
      refine congrArg _ (funext fun a => Fin.ext ?_)
      match a with
      | ⟨0, _⟩ => show win0_1.index t (0 : Fin 2) * 1024 + 1 * i.val = i.val; rw [e10]; omega
      | ⟨1, _⟩ => show win0_1.index t (1 : Fin 2) * 128 + 1 * q.val = 128 * t.val + q.val; rw [e11]; omega
  · show V m c main_v1 (((cfg0.win 2).blk t).view.emb (ix2 (0 : Fin 1) q)) = _
    rw [← V_bias_apply m c ⟨128 * t.val + q.val, hq⟩]
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * q.val = 128 * t.val + q.val; rw [e21]; omega

/-! ## The blocks cover the result array -/

/-- An index of the array is in point `t`'s block iff each coordinate is in the block's range on its axis. -/
theorem mem_blk (t : Fin cfg0.N) (i : S128x1024.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v2).slice (win0_3.rect t)).set ↔ _
  rw [View.set_slice_whole, Rect.mem_set_unit]
  exact Iff.rfl

/-- Column `o` of the result is in the block of point `o / 128`. -/
theorem cover (i : S128x1024.Idx) : ∃ t : Fin cfg0.N, (cfg0.win 3).flush t = true ∧ i ∈ ((cfg0.win 3).blk t).view.set := by
  have hi0 : (i 0).val < 128 := (i 0).isLt
  have hi1 : (i 1).val < 1024 := (i 1).isLt
  have hN := N_eq
  refine ⟨⟨(i 1).val / 128, by rw [hN]; omega⟩, flush0_3 _, ?_⟩
  rw [mem_blk]
  obtain ⟨-, -, -, -, -, -, e30, e31⟩ := idx_facts ⟨(i 1).val / 128, by rw [hN]; omega⟩
  intro a
  match a with
  | ⟨0, _⟩ =>
    show win0_3.index _ (0 : Fin 2) * 128 ≤ (i 0).val ∧ (i 0).val < win0_3.index _ (0 : Fin 2) * 128 + 128
    rw [e30]; omega
  | ⟨1, _⟩ =>
    show win0_3.index _ (1 : Fin 2) * 128 ≤ (i 1).val ∧ (i 1).val < win0_3.index _ (1 : Fin 2) * 128 + 128
    rw [e31]; show (i 1).val / 128 * 128 ≤ (i 1).val ∧ (i 1).val < (i 1).val / 128 * 128 + 128; omega

/-- THE RESULT ARRAY after the run is the layer of the arguments. -/
theorem final (c : Dev nD) : (dats m 0 c).arrAt 3 cfg0.N = result m c :=
  (dats m 0 c).arrAt_eq_of_cover 3 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.MaxPlus

end
-- ==== Proof.LibRealClosure.lean ====
/-
  Real numbers inside the extended reals: the coercion of a finite sum, closure of "is a real number" (neither −∞ nor +∞)
  under sums and sums of products, and the one law of the extended reals' division used to trade a reciprocal for a
  quotient: `a · (1 / b) = a / b` off a zero divisor (at `b = 0 = a` the left side is `0`, the right side `−∞`).
-/
import Idealize.ShloMosaic.PureOps.Ideal

noncomputable section

namespace Cert.RealClosure

open Idealize.ShloMosaic

/-- Multiplying by the reciprocal is dividing, off a zero divisor. -/
theorem mul_div_one (a b : EReal) (hb : b ≠ 0) : a * Ideal.div 1 b = Ideal.div a b := by
  unfold Ideal.div; rw [if_neg hb, if_neg hb, one_mul]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

/-- A finite sum of products of reals is real. -/
theorem sum_mul_real {ι : Type} (s : Finset ι) (f g : ι → EReal) (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  lift f to ι → ℝ using fun n => ⟨(hf n).2, (hf n).1⟩
  lift g to ι → ℝ using fun n => ⟨(hg n).2, (hg n).1⟩
  have : (∑ i ∈ s, (f i : EReal) * (g i : EReal)) = ((∑ i ∈ s, f i * g i : ℝ) : EReal) := by
    rw [coe_sum]; exact Finset.sum_congr rfl fun i _ => (EReal.coe_mul _ _).symm
  rw [this]
  exact ⟨EReal.coe_ne_bot _, EReal.coe_ne_top _⟩

end Cert.RealClosure

end
-- ==== Proof.LibSoftmaxReal.lean ====
/-
  The softmax-weighted mean of finitely many real scores is a real number.

  The reference computes, per output entry, `hard = max_k s_k` and `soft = Σ_k (exp (s_k − M) / Z) · s_k` with
  `M = max_k s_k` and `Z = Σ_k exp (s_k − M)`, and returns `hard + (soft − soft)`. On the extended reals `a − a = 0` only
  for a real `a` (`∞ − ∞` is not `0`), so what has to be shown is that `soft` is real when every score is: `M` is real (a maximum
  of reals over a non-empty index set), each `exp (s_k − M)` is a positive real, so `Z` is a positive real, each quotient and
  each product is real, and so is the sum.
-/
import Idealize.ShloMosaic.PureOps.Ideal
import Mathlib.Data.Finset.Fold
import proofs.«156442_j23295902613810_2_alg».proof.Proof.LibRealClosure

noncomputable section

namespace Cert.Softmax

open Idealize.ShloMosaic

/-- A real number minus itself is zero. -/
theorem sub_self_real {a : EReal} (h : a ≠ ⊥ ∧ a ≠ ⊤) : a - a = 0 := by
  lift a to ℝ using ⟨h.2, h.1⟩
  rw [← EReal.coe_sub, sub_self, EReal.coe_zero]

/-- The maximum (the fold of `max` from `−∞`) of real numbers over a non-empty finite index set is real. -/
theorem fold_max_real {ι : Type} [Fintype ι] [Nonempty ι] (s : ι → EReal) (hs : ∀ k, s k ≠ ⊥ ∧ s k ≠ ⊤) :
    (Finset.univ : Finset ι).fold max ⊥ s ≠ ⊥ ∧ (Finset.univ : Finset ι).fold max ⊥ s ≠ ⊤ := by
  constructor
  · intro h
    obtain ⟨k⟩ := ‹Nonempty ι›
    have hle : s k ≤ (Finset.univ : Finset ι).fold max ⊥ s := by
      rw [Finset.le_fold_max]; exact Or.inr ⟨k, Finset.mem_univ k, le_refl _⟩
    rw [h] at hle
    exact (hs k).1 (le_bot_iff.mp hle)
  · have hlt : (Finset.univ : Finset ι).fold max ⊥ s < ⊤ := by
      rw [Finset.fold_max_lt]; exact ⟨bot_lt_top, fun k _ => lt_top_iff_ne_top.mpr (hs k).2⟩
    exact ne_of_lt hlt

/-- The softmax-weighted sum of real scores, shifted by a real `M`, is real. -/
theorem soft_real {ι : Type} [Fintype ι] [Nonempty ι] (s : ι → EReal) (hs : ∀ k, s k ≠ ⊥ ∧ s k ≠ ⊤) (M : EReal) (hM : M ≠ ⊥ ∧ M ≠ ⊤) :
    (0 + ∑ k, Ideal.div (Ideal.exp (s k - M)) (0 + ∑ j, Ideal.exp (s j - M)) * s k) ≠ ⊥
    ∧ (0 + ∑ k, Ideal.div (Ideal.exp (s k - M)) (0 + ∑ j, Ideal.exp (s j - M)) * s k) ≠ ⊤ := by
  lift s to ι → ℝ using fun k => ⟨(hs k).2, (hs k).1⟩
  lift M to ℝ using ⟨hM.2, hM.1⟩
  have he : ∀ k, Ideal.exp ((s k : EReal) - (M : EReal)) = ((Real.exp (s k - M) : ℝ) : EReal) := fun k => by
    rw [← EReal.coe_sub]; rfl
  have hZ : (0 : EReal) + ∑ j, Ideal.exp ((s j : EReal) - (M : EReal)) = ((∑ j, Real.exp (s j - M) : ℝ) : EReal) := by
    rw [zero_add, Cert.RealClosure.coe_sum]
    exact Finset.sum_congr rfl fun j _ => he j
  have hpos : (0 : ℝ) < ∑ j, Real.exp (s j - M) := Finset.sum_pos (fun j _ => Real.exp_pos _) Finset.univ_nonempty
  have hterm : ∀ k, Ideal.div (Ideal.exp ((s k : EReal) - (M : EReal))) (0 + ∑ j, Ideal.exp ((s j : EReal) - (M : EReal))) * (s k : EReal)
      = ((Real.exp (s k - M) * (1 / ∑ j, Real.exp (s j - M)) * s k : ℝ) : EReal) := fun k => by
    rw [hZ, Ideal.div_coe (ne_of_gt hpos), he k, ← EReal.coe_mul, ← EReal.coe_mul]
  have hsum : (0 : EReal) + ∑ k, Ideal.div (Ideal.exp ((s k : EReal) - (M : EReal))) (0 + ∑ j, Ideal.exp ((s j : EReal) - (M : EReal))) * (s k : EReal)
      = ((∑ k, Real.exp (s k - M) * (1 / ∑ j, Real.exp (s j - M)) * s k : ℝ) : EReal) := by
    rw [zero_add, Cert.RealClosure.coe_sum]
    exact Finset.sum_congr rfl fun k _ => hterm k
  rw [hsum]
  exact ⟨EReal.coe_ne_bot _, EReal.coe_ne_top _⟩

end Cert.Softmax

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.Reference.lean ====
/-
  The idealized reference computes the max-plus layer of its arguments, when their entries are real.

  Per output entry `i = (n, o)` and reduction index `k` the reference forms the score `s k = w[o, k] + x[n, k]`; then
  `hard = max_k s k` (a reduction by `max` from `−∞`), the softmax of `s / 1` shifted by its own maximum `M = max_k s k`,
  `soft = Σ_k (exp (s k − M) / Σ_j exp (s j − M)) · s k`, and returns `hard + (soft − soft) + b[o]`. With real scores `soft` is a
  real number, `soft − soft = 0`, and the result is `max_k (x[n, k] + w[o, k]) + b[o]`.
-/
import proofs.«156442_j23295902613810_2_alg».proof.Proof.Gen.ReferenceIdeal.Read
import proofs.«156442_j23295902613810_2_alg».proof.Proof.Spec
import proofs.«156442_j23295902613810_2_alg».proof.Proof.LibSoftmaxReal
import proofs.«156442_j23295902613810_2_alg».proof.Proof.LibHostReduceMax
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.ValueIdx

variable (x0 : (⟨S128x1024, .f32⟩ : BufTy).Contents (Elt Ideal)) (x1 : (⟨S1024x1024, .f32⟩ : BufTy).Contents (Elt Ideal))
  (x2 : (⟨S1024, .f32⟩ : BufTy).Contents (Elt Ideal))

/-! ## Words -/

theorem word_neg_inf : Ideal.ofBits .f32 0xFF800000#32 = (⊥ : EReal) := by simp [Ideal.ofBits, Ideal.ieee]
theorem word_one : Ideal.ofBits .f32 0x3F800000#32 = ((1 : ℝ) : EReal) := by
  simp [Ideal.ofBits, Ideal.ieee, -EReal.coe_mul]
  norm_num
theorem word_zero : Ideal.ofBits .f32 0x00000000#32 = (0 : EReal) := by simp [Ideal.ofBits, Ideal.ieee]

/-! ## The scores -/

/-- The rank-3 index `(n, o, k)` of output entry `i = (n, o)` and reduction index `k`. -/
abbrev at3 (i : S128x1024.Idx) (k : Fin 1024) : S128x1024x1024.Idx := idx_main_v15 i k

/-- The score `w[o, k] + x[n, k]`. -/
def score (i : S128x1024.Idx) (k : Fin 1024) : EReal := (x1 (ix2 (i 1) k) : EReal) + (x0 (ix2 (i 0) k) : EReal)

/-- The maximum of the scores of an output entry. -/
def top (i : S128x1024.Idx) : EReal := (Finset.univ : Finset (Fin 1024)).fold max ⊥ (score x0 x1 i)

theorem v4_at (i : S128x1024.Idx) (k : Fin 1024) : val_main_v4 (F := Ideal) x0 x1 (at3 i k) = score x0 x1 i k := by
  rw [val_main_v4_apply, val_main_v2_apply, val_main_v0_apply, val_main_v3_apply, val_main_v1_apply]
  show (x1 _ : EReal) + (x0 _ : EReal) = _
  unfold score
  congr 2
  · funext a; match a with | ⟨0, _⟩ => rfl | ⟨1, _⟩ => rfl
  · funext a; match a with | ⟨0, _⟩ => rfl | ⟨1, _⟩ => rfl

/-- A reduction by `max` from `−∞` over the last axis of a [128,1024,1024] array, at an output entry. -/
theorem reduce_max_at (y : S128x1024x1024.Idx → EReal) (init : S_.Idx → EReal) (hinit : init (Shape.Idx.first h_S_) = ⊥) (i : S128x1024.Idx) :
    Host.reduce (FloatOps.maximumf (F := Ideal) (φ := .f32)) y init reducesTo_S128x1024x1024_S128x1024_d2 h_S_ i
      = (Finset.univ : Finset (Fin 1024)).fold max ⊥ (fun k => y (at3 i k)) := by
  rw [hostReduce_max_single y init reducesTo_S128x1024x1024_S128x1024_d2 (by decide) h_S_ i hinit]
  refine congrArg (fun f => (Finset.univ : Finset (Fin 1024)).fold max ⊥ f) (funext fun k => ?_)
  exact congrArg y (funext fun a => Fin.ext (by match a with | ⟨0, _⟩ => rfl | ⟨1, _⟩ => rfl | ⟨2, _⟩ => rfl))

theorem v5_apply (i : S128x1024.Idx) : val_main_v5 (F := Ideal) x0 x1 i = top x0 x1 i := by
  unfold val_main_v5
  rw [reduce_max_at _ _ (by show Ideal.ofBits .f32 0xFF800000#32 = ⊥; exact word_neg_inf) i]
  exact congrArg (fun f => (Finset.univ : Finset (Fin 1024)).fold max ⊥ f) (funext fun k => v4_at x0 x1 i k)

theorem v7_at (i : S128x1024.Idx) (k : Fin 1024) : val_main_v7 (F := Ideal) x0 x1 (at3 i k) = score x0 x1 i k := by
  rw [val_main_v7_apply, v4_at, val_main_v6_apply, val_main_cst_0_apply]
  show Ideal.div (score x0 x1 i k) (Ideal.ofBits .f32 0x3F800000#32) = _
  rw [word_one, Ideal.div_coe one_ne_zero, div_one, EReal.coe_one, mul_one]

theorem v8_apply (i : S128x1024.Idx) : val_main_v8 (F := Ideal) x0 x1 i = top x0 x1 i := by
  unfold val_main_v8
  rw [reduce_max_at _ _ (by show Ideal.ofBits .f32 0xFF800000#32 = ⊥; exact word_neg_inf) i]
  exact congrArg (fun f => (Finset.univ : Finset (Fin 1024)).fold max ⊥ f) (funext fun k => v7_at x0 x1 i k)

theorem v10_apply (i : S128x1024.Idx) : val_main_v10 (F := Ideal) x0 x1 i = top x0 x1 i := by
  rw [val_main_v10_apply, v8_apply, val_main_v9_apply, val_main_cst_2_apply]
  show max (Ideal.ofBits .f32 0xFF800000#32) (top x0 x1 i) = _
  rw [word_neg_inf]
  exact max_eq_right bot_le

theorem v12_at (i : S128x1024.Idx) (k : Fin 1024) : val_main_v12 (F := Ideal) x0 x1 (at3 i k) = top x0 x1 i := by
  rw [val_main_v12_apply, val_main_v11_apply, ← v10_apply]
  exact congrArg _ (funext fun a => by match a with | ⟨0, _⟩ => rfl | ⟨1, _⟩ => rfl)

theorem v14_at (i : S128x1024.Idx) (k : Fin 1024) :
    val_main_v14 (F := Ideal) x0 x1 (at3 i k) = Ideal.exp (score x0 x1 i k - top x0 x1 i) := by
  rw [val_main_v14_apply, val_main_v13_apply, v7_at, v12_at]
  rfl

theorem v15_apply (i : S128x1024.Idx) :
    val_main_v15 (F := Ideal) x0 x1 i = 0 + ∑ k : Fin 1024, Ideal.exp (score x0 x1 i k - top x0 x1 i) := by
  rw [val_main_v15_apply, val_main_cst_3_apply]
  show Ideal.ofBits .f32 0x00000000#32 + _ = _
  rw [word_zero]
  exact congrArg (0 + ·) (Finset.sum_congr rfl fun k _ => v14_at x0 x1 i k)

theorem v17_at (i : S128x1024.Idx) (k : Fin 1024) :
    val_main_v17 (F := Ideal) x0 x1 (at3 i k) = 0 + ∑ j : Fin 1024, Ideal.exp (score x0 x1 i j - top x0 x1 i) := by
  rw [val_main_v17_apply, val_main_v16_apply, ← v15_apply]
  exact congrArg _ (funext fun a => by match a with | ⟨0, _⟩ => rfl | ⟨1, _⟩ => rfl)

theorem v19_at (i : S128x1024.Idx) (k : Fin 1024) :
    val_main_v19 (F := Ideal) x0 x1 (at3 i k)
      = Ideal.div (Ideal.exp (score x0 x1 i k - top x0 x1 i)) (0 + ∑ j : Fin 1024, Ideal.exp (score x0 x1 i j - top x0 x1 i)) * score x0 x1 i k := by
  rw [val_main_v19_apply, val_main_v18_apply, v14_at, v17_at, v4_at]
  rfl

theorem v20_apply (i : S128x1024.Idx) :
    val_main_v20 (F := Ideal) x0 x1 i
      = 0 + ∑ k : Fin 1024, Ideal.div (Ideal.exp (score x0 x1 i k - top x0 x1 i)) (0 + ∑ j : Fin 1024, Ideal.exp (score x0 x1 i j - top x0 x1 i)) * score x0 x1 i k := by
  rw [val_main_v20_apply, val_main_cst_4_apply]
  show Ideal.ofBits .f32 0x00000000#32 + _ = _
  rw [word_zero]
  exact congrArg (0 + ·) (Finset.sum_congr rfl fun k _ => v19_at x0 x1 i k)

/-! ## The result -/

/-- THE REFERENCE'S RESULT is the max-plus layer of its arguments, when `x` and `w` have real entries. -/
theorem result_eq (hx0 : ∀ j, (x0 j : EReal) ≠ ⊥ ∧ (x0 j : EReal) ≠ ⊤) (hx1 : ∀ j, (x1 j : EReal) ≠ ⊥ ∧ (x1 j : EReal) ≠ ⊤) :
    val_main_v25 (F := Ideal) x0 x1 x2 = Cert.Spec.G x0 x1 x2 := by
  funext i
  have hs : ∀ k, score x0 x1 i k ≠ ⊥ ∧ score x0 x1 i k ≠ ⊤ := fun k =>
    Cert.RealClosure.add_real (hx1 _) (hx0 _)
  have hM : top x0 x1 i ≠ ⊥ ∧ top x0 x1 i ≠ ⊤ := Cert.Softmax.fold_max_real (score x0 x1 i) hs
  rw [val_main_v25_apply, val_main_v22_apply, val_main_v21_apply, v20_apply, v5_apply, val_main_v24_apply, val_main_v23_apply]
  show (top x0 x1 i + (_ - _)) + (x2 _ : EReal) = _
  rw [Cert.Softmax.sub_self_real (Cert.Softmax.soft_real (score x0 x1 i) hs (top x0 x1 i) hM), add_zero]
  unfold Cert.Spec.G Cert.Spec.hard top
  congr 1
  · refine congrArg (fun f => (Finset.univ : Finset (Fin 1024)).fold max ⊥ f) (funext fun k => ?_)
    unfold score
    exact add_comm _ _
  · exact congrArg _ (funext fun a => by match a with | ⟨0, _⟩ => rfl)

end Cert.ReferenceIdeal.RefValue

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.Finite.lean ====
/-
  The precondition read: every entry of `x` and of `w` is a real number.

  The precondition is the conjunction of three `all(|a| < +∞)`, one per argument; where it evaluates to 1 each conjunct does,
  and a conjunct that is 1 says every entry of its array is neither `−∞` nor `+∞`.
-/
import proofs.«156442_j23295902613810_2_alg».proof.Proof.Gen.Pre_finite_inputs
import proofs.«156442_j23295902613810_2_alg».proof.Proof.LibFiniteEntries
import Idealize.ShloMosaic.Lib.Affine

noncomputable section

namespace Cert.Pre_finite_inputs.Real

open Cert.Pre_finite_inputs Cert.Pre_finite_inputs.Gen Idealize.ShloMosaic

/-- Where the precondition holds, `x` and `w` have real entries. -/
theorem entries_real (a0 : FVec Ideal S128x1024 .f32) (a1 : FVec Ideal S1024x1024 .f32) (a2 : FVec Ideal S1024 .f32)
    (h : fn (F := Ideal) a0 a1 a2 = fun _ => 1#1) :
    (∀ i, (a0 i : EReal) ≠ ⊥ ∧ (a0 i : EReal) ≠ ⊤) ∧ (∀ i, (a1 i : EReal) ≠ ⊥ ∧ (a1 i : EReal) ≠ ⊤) := by
  have h0 := congrFun h ValueIdx.ix0
  dsimp only [fn] at h0
  obtain ⟨h01, -⟩ := IntOp.andi_eq_one.mp h0
  obtain ⟨e0, e1⟩ := IntOp.andi_eq_one.mp h01
  exact ⟨fun i => Cert.FiniteEntries.arr_real a0 _ _ _ e0 i, fun i => Cert.FiniteEntries.arr_real a1 _ _ _ e1 i⟩

end Cert.Pre_finite_inputs.Real

end
-- ==== Proof.lean ====
/-
  The certificate of the max-plus ("tropical") linear layer: a blocked kernel against its reference.

  Both programs compute, for `x : [128, 1024]`, `w : [1024, 1024]`, `b : [1024]`,
      out[n, o] = max_i (x[n, i] + w[o, i]) + b[o]        (`Cert.Spec.G`).

  THE KERNEL transposes `w` on the host and runs eight grid points, one per block of 128 output columns. A point holds all of
  `x`, 128 columns of the transposed weight and of the bias; its body starts a 128×128 accumulator at a constant standing for
  `−∞` (named so at the ideal instance: `preserves`), and in eight trips of a loop, each of 128 unrolled steps, joins
  `x[p, i] + wt[i, q]` into it by `max`, one reduction index `i` at a time; then it adds the bias row. A running maximum
  does not depend on the order or grouping of its terms, so the accumulator ends at the fold of `max` from `−∞` over the 1024
  terms (Proof/Tropical, Step, Trip, Loop, Block), and the eight column blocks tile the result (Proof/KernelValue).

  THE REFERENCE forms all scores `s = w[o, i] + x[n, i]`, takes `hard = max_i s`, a softmax-weighted mean `soft` of the scores,
  and returns `hard + (soft − soft) + b[o]`. On the extended reals `soft − soft = 0` needs `soft` to be a real number; it is one
  when every entry of `x` and `w` is real, which is what the precondition says (Proof/Finite, Softmax, Reference). This is the one
  place the precondition is used: commutativity of `+` and the order-independence of `max` hold at the infinities too.

  The three frames are the generated ones; the reference's is its generated run with the result dropped.
-/
import proofs.«156442_j23295902613810_2_alg».proof.Defs
import proofs.«156442_j23295902613810_2_alg».proof.Proof.Gen.Kernel
import proofs.«156442_j23295902613810_2_alg».proof.Proof.Gen.Kernel.Skeleton
import proofs.«156442_j23295902613810_2_alg».proof.Proof.Gen.Kernel.Loops
import proofs.«156442_j23295902613810_2_alg».proof.Proof.Gen.Kernel.Launch
import proofs.«156442_j23295902613810_2_alg».proof.Proof.Gen.Kernel.Points
import proofs.«156442_j23295902613810_2_alg».proof.Proof.Gen.Kernel.Frame
import proofs.«156442_j23295902613810_2_alg».proof.Proof.Gen.KernelIdeal
import proofs.«156442_j23295902613810_2_alg».proof.Proof.Gen.KernelIdeal.Skeleton
import proofs.«156442_j23295902613810_2_alg».proof.Proof.Gen.KernelIdeal.Loops
import proofs.«156442_j23295902613810_2_alg».proof.Proof.Gen.KernelIdeal.Launch
import proofs.«156442_j23295902613810_2_alg».proof.Proof.Gen.KernelIdeal.Points
import proofs.«156442_j23295902613810_2_alg».proof.Proof.Gen.KernelIdeal.Frame
import proofs.«156442_j23295902613810_2_alg».proof.Proof.Gen.ReferenceIdeal
import proofs.«156442_j23295902613810_2_alg».proof.Proof.Gen.Pre_finite_inputs
import proofs.«156442_j23295902613810_2_alg».proof.Proof.Gen.KernelIdeal.Value
import proofs.«156442_j23295902613810_2_alg».proof.Proof.Gen.ReferenceIdeal.Run
import proofs.«156442_j23295902613810_2_alg».proof.Proof.Gen.ReferenceIdeal.Read
import proofs.«156442_j23295902613810_2_alg».proof.Proof.KernelValue
import proofs.«156442_j23295902613810_2_alg».proof.Proof.Reference
import proofs.«156442_j23295902613810_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the accumulator's finite initial constant is named `−∞`. -/
theorem preserves : Cert.preserves_Kernel_KernelIdeal :=
  IdealRules.named_const.statement Cert.KernelIdeal.κ "neg_big" .f32 0xFF333332#32 ⊥ rfl

/-- Both runs end at the max-plus layer of the (agreeing) arguments. -/
theorem algebraic : Cert.algebraic_KernelIdeal_ReferenceIdeal := by
  intro m ρ m' ρ' hpre hagree
  refine ⟨fun c => Cert.KernelIdeal.MaxPlus.result m c, Cert.KernelIdeal.MaxPlus.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2]
  obtain ⟨h0, h1⟩ := Cert.Pre_finite_inputs.Real.entries_real _ _ _ (hpre c)
  exact Cert.ReferenceIdeal.RefValue.result_eq _ _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
